-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 85
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x64, .f32⟩
  | .hbm, ⟨77, _⟩ => ⟨S1700000x1, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 108
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x1, .f32⟩
  | .hbm, ⟨84, _⟩ => ⟨S1700000x64, .f32⟩
  | .hbm, ⟨85, _⟩ => ⟨S1700000x64, .f32⟩
  | .hbm, ⟨86, _⟩ => ⟨S_, .f32⟩
  | .hbm, ⟨87, _⟩ => ⟨S100000x64, .f32⟩
  | .hbm, ⟨88, _⟩ => ⟨S1700000x1, .i32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S_, .f32⟩
  | .hbm, ⟨94, _⟩ => ⟨S100000, .f32⟩
  | .hbm, ⟨95, _⟩ => ⟨S_, .f32⟩
  | .hbm, ⟨96, _⟩ => ⟨S100000, .f32⟩
  | .hbm, ⟨97, _⟩ => ⟨S100000, .f32⟩
  | .hbm, ⟨98, _⟩ => ⟨S100000x1, .f32⟩
  | .hbm, ⟨99, _⟩ => ⟨S100000x64, .f32⟩
  | .hbm, ⟨100, _⟩ => ⟨S100000x64, .f32⟩
  | .hbm, ⟨101, _⟩ => ⟨S100000x64, .f32⟩
  | .hbm, ⟨102, _⟩ => ⟨S_, .f32⟩
  | .hbm, ⟨103, _⟩ => ⟨S100000, .f32⟩
  | .hbm, ⟨104, _⟩ => ⟨S100000x1, .f32⟩
  | .hbm, ⟨105, _⟩ => ⟨S100000x1, .f32⟩
  | .hbm, ⟨106, _⟩ => ⟨S100000x64, .f32⟩
  | .hbm, ⟨107, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_c_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_call2_cst : Ref sig .tc := ⟨.hbm, 93, rfl⟩
abbrev main_call2_v0 : Ref sig .tc := ⟨.hbm, 94, rfl⟩
abbrev main_call2_cst_0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_cst_1 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_v68 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The kernel program's run with its RESULT named. @main is nine segments: three stretches of host operations, the first
  projection `x · W1` as a grid of row blocks, a stretch (gather, scale, scatter-add), the bias-and-relu grid, the second
  projection, another stretch, and the bias-and-log-softmax grid. Every weakly fair execution ends with every unscoped
  buffer at the contents of the last segment boundary; read at the result buffer this is what the last grid's
  write-backs leave, read at an argument buffer it is the launch contents.
-/
import proofs.«178928_j38628935860963_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the six argument arrays as launched. -/
theorem run_result : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v61 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.RunValue

end
-- ==== Proof.Region0.lean ====
/-
  The first grid of the kernel program: the projection X · W1 in 20 row blocks of 5000 rows. Point t multiplies rows
  5000 t … 5000 t + 4999 of X [100000, 256] by the whole of W1 [256, 128] into a zero accumulator; on the extended reals the
  change of float format before the product is the identity and entry (p, q) of the block product is the sum over k of
  X (5000 t + p, k) · W1 (k, q) — the same sum as entry (5000 t + p, q) of the reference's whole product. The 20 row blocks
  tile the result, so after the grid the result array is the reference's product stage of the two arrays the grid read.
-/
import Idealize.ShloMosaic.Lib.Pipeline.Value
import Idealize.ShloMosaic.Lib.ValueIdx
import Idealize.ShloMosaic.Lib.ValueLayout
import Idealize.ShloMosaic.PureOps.Ideal.Laws
import proofs.«178928_j38628935860963_1_alg».proof.Proof.Gen.KernelIdeal.Frame
import proofs.«178928_j38628935860963_1_alg».proof.Proof.RefRead

noncomputable section

open Idealize.ShloMosaic Idealize.ShloMosaic.TcCoe Idealize.SL.Sem
open Idealize.ShloMosaic.Pipeline (Dat)
open Cert.KernelIdeal Cert.KernelIdeal.Gen

namespace Cert.KernelIdeal.Region0

variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-- The block indices of the three windows at every grid point: the left operand and the result move down one row block
    per point, the right operand stays whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- On the left operand of the block product, the row coordinate is the output's row. -/
theorem lhs_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- and the column coordinate is the contraction index. -/
theorem lhs_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- On the right operand the row coordinate is the contraction index, -/
theorem rhs_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- and the column coordinate is the output's column. -/
theorem rhs_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The body's payload at row p and column q of its block: the sum over the 256 contraction indices of the products of
    the left block's row p and the right block's column q (no rounding at the extended reals, and the accumulator is zero). -/
theorem pay_apply (x0 : Vec Ideal S5000x256 .f32) (x1 : Vec Ideal S256x128 .f32) (p : Fin 5000) (q : Fin 128) :
    k0_pay1 x0 x1 (ValueIdx.ix2 p q) = ∑ k : Fin 256, x0 (ValueIdx.ix2 p k) * x1 (ValueIdx.ix2 k q) := by
  unfold k0_pay1
  refine (Ideal.matmul_constant_zero_apply dot_S5000x256_S256x128_S5000x128_1_0_0_1_n_n none _ _ (ValueIdx.ix2 p q)).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ValueIdx.ix2 p q) ((ValueIdx.contrEquiv1 dot_S5000x256_S256x128_S5000x128_1_0_0_1_n_n 256 rfl rfl).symm k) = ValueIdx.ix2 p k := funext fun a => Fin.ext (by
    match a with
    | ⟨0, _⟩ => exact lhs_0 _ _
    | ⟨1, _⟩ => exact (lhs_1 _ _).trans hk)
  have er : dot_S5000x256_S256x128_S5000x128_1_0_0_1_n_n.rhsIdx (ValueIdx.ix2 p q) ((ValueIdx.contrEquiv1 dot_S5000x256_S256x128_S5000x128_1_0_0_1_n_n 256 rfl rfl).symm k) = ValueIdx.ix2 k q := funext fun a => Fin.ext (by
    match a with
    | ⟨0, _⟩ => exact (rhs_0 _ _).trans hk
    | ⟨1, _⟩ => exact rhs_1 _ _)
  show x0 _ * x1 _ = _
  rw [el, er]

/-- Row p, column k of the left window's block at point t is row 5000 t + p, column k of the left array. -/
theorem iblk_left (c : Dev nD) (t : Fin cfg0.N) (p : Fin 5000) (k : Fin 256) (r : Fin 100000) (hr : r.val = 5000 * t.val + p.val) :
    iblk0 V c 0 t (ValueIdx.ix2 p k) = V c main_arg0 (ValueIdx.ix2 r k) := by
  obtain ⟨e0, e1, -⟩ := idx_facts t
  unfold iblk0
  rw [View.read_apply]
  show V c main_arg0 (((cfg0.win 0).blk t).view.emb (ValueIdx.ix2 p k)) = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The right window's block at every point is the whole right array. -/
theorem iblk_right (c : Dev nD) (t : Fin cfg0.N) (k : Fin 256) (q : Fin 128) :
    iblk0 V c 1 t (ValueIdx.ix2 k q) = V c main_arg2 (ValueIdx.ix2 k q) := by
  obtain ⟨-, -, e2, e3, -⟩ := idx_facts t
  unfold iblk0
  rw [View.read_apply]
  show V c main_arg2 (((cfg0.win 1).blk t).view.emb (ValueIdx.ix2 k q)) = V c main_arg2 _
  congr 1
  funext a
  apply Fin.ext
  match a with
  | ⟨0, _⟩ => show win0_1.index t (0 : Fin 2) * 256 + 1 * k.val = k.val; rw [e2]; omega
  | ⟨1, _⟩ => show win0_1.index t (1 : Fin 2) * 128 + 1 * q.val = q.val; rw [e3]; omega

/-- The reference's product stage at row r and column q: the sum over the contraction index of row r of the left array
    times column q of the right. -/
theorem ref_apply (X : (⟨Cert.ReferenceIdeal.S100000x256, .f32⟩ : BufTy).Contents (Elt Ideal)) (W : (⟨Cert.ReferenceIdeal.S256x128, .f32⟩ : BufTy).Contents (Elt Ideal)) (r : Fin 100000) (q : Fin 128) :
    Cert.ReferenceIdeal.ReadP.val_main_v33 (F := Ideal) X W (ValueIdx.ix2 r q) = ∑ k : Fin 256, X (ValueIdx.ix2 r k) * W (ValueIdx.ix2 k q) := by
  rw [Cert.ReferenceIdeal.ReadP.val_main_v33_apply]
  refine Finset.sum_congr rfl fun k _ => ?_
  have el : Cert.ReferenceIdeal.ReadP.lidx_main_v33 (ValueIdx.ix2 r q) k = ValueIdx.ix2 r k := funext fun a => Fin.ext (by
    match a with
    | ⟨0, _⟩ => rfl
    | ⟨1, _⟩ => rfl)
  have er : Cert.ReferenceIdeal.ReadP.ridx_main_v33 (ValueIdx.ix2 r q) k = ValueIdx.ix2 k q := funext fun a => Fin.ext (by
    match a with
    | ⟨0, _⟩ => rfl
    | ⟨1, _⟩ => rfl)
  rw [el, er]

/-- What point t writes back is block t of the reference's product of the two arrays the grid reads. -/
theorem flushed_eq (c : Dev nD) (t : Fin cfg0.N) :
    (dat0 V c).flushed 2 t = ((cfg0.win 2).blk t).view.read (Elt Ideal) (Cert.ReferenceIdeal.ReadP.val_main_v33 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨-, -, -, -, e4, e5⟩ := idx_facts t
  have ht : t.val < 20 := lt_of_lt_of_eq t.isLt (show cfg0.N = 20 from N_0)
  funext y
  obtain ⟨p, q, rfl⟩ : ∃ (p : Fin 5000) (q : Fin 128), y = ValueIdx.ix2 p q := ⟨y 0, y 1, ValueIdx.eq_ix2 y⟩
  rw [View.read_apply]
  have hr : 5000 * t.val + p.val < 100000 := by have := p.isLt; omega
  have hi : ((cfg0.win 2).blk t).view.emb (ValueIdx.ix2 p q) = ValueIdx.ix2 (⟨5000 * t.val + p.val, hr⟩ : Fin 100000) q := by
    funext a; apply Fin.ext
    match a with
    | ⟨0, _⟩ => show win0_2.index t (0 : Fin 2) * 5000 + 1 * p.val = 5000 * t.val + p.val; rw [e4]; omega
    | ⟨1, _⟩ => show win0_2.index t (1 : Fin 2) * 128 + 1 * q.val = q.val; rw [e5]; omega
  rw [hi]
  refine (pay_apply _ _ p q).trans ?_
  refine Eq.trans ?_ (ref_apply _ _ ⟨_, hr⟩ q).symm
  refine Finset.sum_congr rfl fun k _ => ?_
  rw [iblk_left V c t p k ⟨_, hr⟩ rfl, iblk_right V c t k q]

/-- An index of the result array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row r of the result array is in the block of point r / 5000: the row blocks cover the array. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- After the first projection's grid its result array is the reference's product stage of the two arrays the grid read. -/
theorem arr (c : Dev nD) :
    (Gen.dat0 V c).arrAt 2 cfg0.N
      = Cert.ReferenceIdeal.ReadP.val_main_v33 (F := Ideal) (V c main_arg0) (V c main_arg2) :=
  (dat0 V c).arrAt_eq_of_cover 2 _ (fun t _ => flushed_eq V c t) cover

end Cert.KernelIdeal.Region0

end
-- ==== Proof.Region1.lean ====
/-
  The second grid of the kernel program: to every row of the aggregated features the bias row is added and the negative
  entries are cut at zero. Point t of the grid of 20 reads rows 5000 t … 5000 t + 4999 of the [100000, 128] array and the
  whole bias, and writes back the same rows of the result. The 20 row blocks tile the array, so after the grid the
  result array holds max (A (r, q) + b q) 0 at every (r, q) — which is what the reference's two broadcasts of the bias, its
  add and its maximum against the zero splat give at (r, q).
-/
import Idealize.ShloMosaic.Lib.Pipeline.Value
import Idealize.ShloMosaic.Lib.ValueIdx
import Idealize.ShloMosaic.Lib.ValueLayout
import Idealize.ShloMosaic.PureOps.Ideal.Laws
import proofs.«178928_j38628935860963_1_alg».proof.Proof.Gen.KernelIdeal.Frame
import proofs.«178928_j38628935860963_1_alg».proof.Proof.RefRead

noncomputable section

open Idealize.ShloMosaic Idealize.ShloMosaic.TcCoe Idealize.SL.Sem
open Idealize.ShloMosaic.Pipeline (Dat)
open Cert.KernelIdeal Cert.KernelIdeal.Gen

namespace Cert.KernelIdeal.Region1

/-- The bias row added to every row, then the maximum with zero: the reference's own operations on an array of
    [100000, 128] and a row of [128]. -/
abbrev biasRelu (A : FVec Ideal Cert.ReferenceIdeal.S100000x128 .f32) (b : FVec Ideal Cert.ReferenceIdeal.S128 .f32) :
    FVec Ideal Cert.ReferenceIdeal.S100000x128 .f32 :=
  maximumf (F := Ideal) (addf (F := Ideal) A (Cert.ReferenceIdeal.ReadP.val_main_v48 (F := Ideal) b))
    (Cert.ReferenceIdeal.ReadP.val_main_call1_v0 (F := Ideal))

/-- The reference's relu stage is that function of its scatter-add stage and the bias argument. -/
theorem ref_eq (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal)) :
    Cert.ReferenceIdeal.ReadP.val_main_v50 (F := Ideal) x0 x1 x2 x3
      = biasRelu (Cert.ReferenceIdeal.ReadP.val_main_v46 (F := Ideal) x0 x1 x2) x3 := rfl

/-- At row r and column q it is max (A (r, q) + b q) 0. -/
theorem ref_apply (A : FVec Ideal Cert.ReferenceIdeal.S100000x128 .f32) (b : FVec Ideal Cert.ReferenceIdeal.S128 .f32)
    (r : Fin 100000) (q : Fin 128) :
    biasRelu A b (ValueIdx.ix2 r q) = max (A (ValueIdx.ix2 r q) + b (ValueIdx.ix1 q)) (Ideal.ofBits .f32 0x00000000#32) := by
  show max (A (ValueIdx.ix2 r q) + Cert.ReferenceIdeal.ReadP.val_main_v48 (F := Ideal) b (ValueIdx.ix2 r q))
      (Cert.ReferenceIdeal.ReadP.val_main_call1_v0 (F := Ideal) (ValueIdx.ix2 r q)) = _
  rw [Cert.ReferenceIdeal.ReadP.val_main_v48_apply, Cert.ReferenceIdeal.ReadP.val_main_v47_apply,
    Cert.ReferenceIdeal.ReadP.val_main_call1_v0_apply, Cert.ReferenceIdeal.ReadP.val_main_call1_cst_apply]
  have e : Cert.ReferenceIdeal.ReadP.idx_main_v47 (Cert.ReferenceIdeal.ReadP.idx_main_v48 (ValueIdx.ix2 r q)) = ValueIdx.ix1 q :=
    funext fun a => by match a with | ⟨0, _⟩ => rfl
  rw [e]
  rfl

/-- The body's arithmetic at row p and column q of a block: max (x0 (p, q) + x1 q) 0 (the two shape casts and the
    broadcast of the bias row only move indices). -/
theorem pay_apply (x0 : Vec Ideal S5000x128 .f32) (x1 : Vec Ideal S128 .f32) (p : Fin 5000) (q : Fin 128) :
    k1_pay1 x0 x1 (ValueIdx.ix2 p q) = max (x0 (ValueIdx.ix2 p q) + x1 (ValueIdx.ix1 q)) (Ideal.ofBits .f32 0x00000000#32) := by
  unfold k1_pay1
  rw [shapeCast_self]
  simp only [ValueIdx.maximumf_apply, ValueIdx.addf_apply, ValueIdx.broadcast_apply]
  rw [ValueIdx.broadcastTo_1b_ab_apply, ValueIdx.shapeCast_a_1a_apply]
  rfl

variable (V : (c : Dev nD) → (b : Ref sig .tc) → Buf (Elt Ideal) ((c : Thread nD τ).loc b))

/-- The zero offsets of a whole-block access, as the constant function (rank 2 and rank 1). -/
theorem hz : (![0, 0] : Fin 2 → Nat) = fun _ => 0 := funext fun a => by fin_cases a <;> rfl
theorem hz1 : (![0] : Fin 1 → Nat) = fun _ => 0 := funext fun a => by fin_cases a; rfl

/-- The block indices of the three windows at every grid point: the array and the result move down one row block per
    point, the bias stays whole. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

/-- Row p, column k of the array window's block at point t is row 5000 t + p, column k of the array. -/
theorem iblk_rows (c : Dev nD) (t : Fin cfg1.N) (p : Fin 5000) (k : Fin 128) (r : Fin 100000) (hr : r.val = 5000 * t.val + p.val) :
    iblk1 V c 0 t (ValueIdx.ix2 p k) = V c main_v45 (ValueIdx.ix2 r k) := by
  obtain ⟨e0, e1, -⟩ := idx_facts t
  unfold iblk1
  rw [View.read_apply]
  show V c main_v45 (((cfg1.win 0).blk t).view.emb (ValueIdx.ix2 p k)) = V c main_v45 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The bias window's block at every point is the whole bias. -/
theorem iblk_bias (c : Dev nD) (t : Fin cfg1.N) (q : Fin 128) :
    iblk1 V c 1 t (ValueIdx.ix1 q) = V c main_arg3 (ValueIdx.ix1 q) := by
  obtain ⟨-, -, e2, -⟩ := idx_facts t
  unfold iblk1
  rw [View.read_apply]
  show V c main_arg3 (((cfg1.win 1).blk t).view.emb (ValueIdx.ix1 q)) = V c main_arg3 _
  congr 1
  funext a
  apply Fin.ext
  match a with
  | ⟨0, _⟩ => show win1_1.index t (0 : Fin 1) * 128 + 1 * q.val = q.val; rw [e2]; omega

/-- What point t writes back is block t of `biasRelu` of the two arrays the grid reads. -/
theorem flushed_eq (c : Dev nD) (t : Fin cfg1.N) :
    (dat1 V c).flushed 2 t = ((cfg1.win 2).blk t).view.read (Elt Ideal) (biasRelu (V c main_v45) (V c main_arg3)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128) hz1]
  obtain ⟨-, -, -, e3, e4⟩ := idx_facts t
  have ht : t.val < 20 := lt_of_lt_of_eq t.isLt (show cfg1.N = 20 from N_1)
  funext y
  obtain ⟨p, q, rfl⟩ : ∃ (p : Fin 5000) (q : Fin 128), y = ValueIdx.ix2 p q := ⟨y 0, y 1, ValueIdx.eq_ix2 y⟩
  rw [View.read_apply]
  have hr : 5000 * t.val + p.val < 100000 := by have := p.isLt; omega
  have hi : ((cfg1.win 2).blk t).view.emb (ValueIdx.ix2 p q) = ValueIdx.ix2 (⟨5000 * t.val + p.val, hr⟩ : Fin 100000) q := by
    funext a; apply Fin.ext
    match a with
    | ⟨0, _⟩ => show win1_2.index t (0 : Fin 2) * 5000 + 1 * p.val = 5000 * t.val + p.val; rw [e3]; omega
    | ⟨1, _⟩ => show win1_2.index t (1 : Fin 2) * 128 + 1 * q.val = q.val; rw [e4]; omega
  rw [hi]
  refine (pay_apply _ _ p q).trans ?_
  refine Eq.trans ?_ (ref_apply _ _ ⟨_, hr⟩ q).symm
  rw [iblk_rows V c t p q ⟨_, hr⟩ rfl, iblk_bias V c t q]

/-- An index of the result array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Row r of the result array is in the block of point r / 5000: the row blocks cover the array. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, e3, e4⟩ := idx_facts t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; rw [e3, ht]; omega
  | ⟨1, _⟩ => show win1_2.index t (1 : Fin 2) * 128 ≤ (i 1).val ∧ (i 1).val < win1_2.index t (1 : Fin 2) * 128 + 128; rw [e4]; omega

/-- After the bias-and-relu grid its result array is `biasRelu` of the two arrays the grid read. -/
theorem arr (c : Dev nD) :
    (Gen.dat1 V c).arrAt 2 cfg1.N = biasRelu (V c main_v45) (V c main_arg3) :=
  (dat1 V c).arrAt_eq_of_cover 2 (biasRelu (V c main_v45) (V c main_arg3)) (fun t _ => flushed_eq V c t) cover

end Cert.KernelIdeal.Region1

end
-- ==== Proof.Region2.lean ====
/-
  The third grid of the kernel program: the second projection H · W2 in 20 row blocks of 5000 rows, H [100000, 128] the
  first layer's output and W2 [128, 64] whole at every point. Entry (p, q) of point t's block product is the sum over k of
  H (5000 t + p, k) · W2 (k, q) (a zero accumulator, the change of float format the identity on the extended reals), which is
  entry (5000 t + p, q) of the reference's product of the same two arrays; the row blocks tile the result array.
-/
import Idealize.ShloMosaic.Lib.Pipeline.Value
import Idealize.ShloMosaic.Lib.ValueIdx
import Idealize.ShloMosaic.Lib.ValueLayout
import Idealize.ShloMosaic.PureOps.Ideal.Laws
import proofs.«178928_j38628935860963_1_alg».proof.Proof.Gen.KernelIdeal.Frame
import proofs.«178928_j38628935860963_1_alg».proof.Proof.Gen.ReferenceIdeal

noncomputable section

open Idealize.ShloMosaic Idealize.ShloMosaic.TcCoe Idealize.SL.Sem
open Idealize.ShloMosaic.Pipeline (Dat)
open Cert.KernelIdeal Cert.KernelIdeal.Gen

namespace Cert.KernelIdeal.Region2

variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-- The block indices of the three windows at every grid point: the left operand and the result move down one row block
    per point, the right operand stays whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- On the left operand of the block product, the row coordinate is the output's row. -/
theorem lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- and the column coordinate is the contraction index. -/
theorem lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- On the right operand the row coordinate is the contraction index, -/
theorem rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- and the column coordinate is the output's column. -/
theorem rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's payload at row p and column q of its block: the sum over the 128 contraction indices of the products of
    the left block's row p and the right block's column q (no rounding at the extended reals, and the accumulator is zero). -/
theorem pay_apply (x0 : Vec Ideal S5000x128 .f32) (x1 : Vec Ideal S128x64 .f32) (p : Fin 5000) (q : Fin 64) :
    k2_pay1 x0 x1 (ValueIdx.ix2 p q) = ∑ k : Fin 128, x0 (ValueIdx.ix2 p k) * x1 (ValueIdx.ix2 k q) := by
  unfold k2_pay1
  rw [shapeCast_self]
  refine (Ideal.matmul_constant_zero_apply dot_S5000x128_S128x64_S5000x64_1_0_0_1_n_n none _ _ (ValueIdx.ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ValueIdx.ix2 p q) ((ValueIdx.contrEquiv1 dot_S5000x128_S128x64_S5000x64_1_0_0_1_n_n 128 rfl rfl).symm k) = ValueIdx.ix2 p k := funext fun a => Fin.ext (by
    match a with
    | ⟨0, _⟩ => exact lhs_0 _ _
    | ⟨1, _⟩ => exact (lhs_1 _ _).trans hk)
  have er : dot_S5000x128_S128x64_S5000x64_1_0_0_1_n_n.rhsIdx (ValueIdx.ix2 p q) ((ValueIdx.contrEquiv1 dot_S5000x128_S128x64_S5000x64_1_0_0_1_n_n 128 rfl rfl).symm k) = ValueIdx.ix2 k q := funext fun a => Fin.ext (by
    match a with
    | ⟨0, _⟩ => exact (rhs_0 _ _).trans hk
    | ⟨1, _⟩ => exact rhs_1 _ _)
  show x0 _ * x1 _ = _
  rw [el, er]

/-- Row p, column k of the left window's block at point t is row 5000 t + p, column k of the left array. -/
theorem iblk_left (c : Dev nD) (t : Fin cfg2.N) (p : Fin 5000) (k : Fin 128) (r : Fin 100000) (hr : r.val = 5000 * t.val + p.val) :
    iblk2 V c 0 t (ValueIdx.ix2 p k) = V c main_v46 (ValueIdx.ix2 r k) := by
  obtain ⟨e0, e1, -⟩ := idx_facts t
  unfold iblk2
  rw [View.read_apply]
  show V c main_v46 (((cfg2.win 0).blk t).view.emb (ValueIdx.ix2 p k)) = V c main_v46 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The right window's block at every point is the whole right array. -/
theorem iblk_right (c : Dev nD) (t : Fin cfg2.N) (k : Fin 128) (q : Fin 64) :
    iblk2 V c 1 t (ValueIdx.ix2 k q) = V c main_arg4 (ValueIdx.ix2 k q) := by
  obtain ⟨-, -, e2, e3, -⟩ := idx_facts t
  unfold iblk2
  rw [View.read_apply]
  show V c main_arg4 (((cfg2.win 1).blk t).view.emb (ValueIdx.ix2 k q)) = V c main_arg4 _
  congr 1
  funext a
  apply Fin.ext
  match a with
  | ⟨0, _⟩ => show win2_1.index t (0 : Fin 2) * 128 + 1 * k.val = k.val; rw [e2]; omega
  | ⟨1, _⟩ => show win2_1.index t (1 : Fin 2) * 64 + 1 * q.val = q.val; rw [e3]; omega

/-- On the left operand of the whole-array product, the row coordinate is the output's row, -/
theorem rlhs_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch by decide), dif_pos (show (0 : Fin Cert.ReferenceIdeal.S100000x128.rank) ∈ Cert.ReferenceIdeal.dot_S100000x128_S128x64_S100000x64_1_0_0_1_n_n.lhsNonContracting by decide)]
  rfl
/-- and the column coordinate is the contraction index. -/
theorem rlhs_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, by decide⟩).val :=
  Cert.ReferenceIdeal.dot_S100000x128_S128x64_S100000x64_1_0_0_1_n_n.lhsIdx_val_of_single rfl i q
/-- On its right operand the row coordinate is the contraction index, -/
theorem rrhs_0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, by decide⟩).val :=
  Cert.ReferenceIdeal.dot_S100000x128_S128x64_S100000x64_1_0_0_1_n_n.rhsIdx_val_of_single rfl i q
/-- and the column coordinate is the output's column. -/
theorem rrhs_1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch by decide), dif_pos (show (1 : Fin Cert.ReferenceIdeal.S128x64.rank) ∈ Cert.ReferenceIdeal.dot_S100000x128_S128x64_S100000x64_1_0_0_1_n_n.rhsNonContracting by decide)]
  rfl

/-- The reference's product of two arrays. -/
abbrev G (X : FVec Ideal Cert.ReferenceIdeal.S100000x128 .f32) (W : FVec Ideal Cert.ReferenceIdeal.S128x64 .f32) : FVec Ideal Cert.ReferenceIdeal.S100000x64 .f32 :=
  Host.dotGeneral (F := Ideal) Cert.ReferenceIdeal.dot_S100000x128_S128x64_S100000x64_1_0_0_1_n_n none X W

/-- The reference's product at row r and column q: the sum over the contraction index of row r of the left array times column q of the right. -/
theorem ref_apply (X : FVec Ideal Cert.ReferenceIdeal.S100000x128 .f32) (W : FVec Ideal Cert.ReferenceIdeal.S128x64 .f32) (r : Fin 100000) (q : Fin 64) :
    G X W (ValueIdx.ix2 r q) = ∑ k : Fin 128, X (ValueIdx.ix2 r k) * W (ValueIdx.ix2 k q) := by
  show Host.dotGeneral (F := Ideal) Cert.ReferenceIdeal.dot_S100000x128_S128x64_S100000x64_1_0_0_1_n_n none X W (ValueIdx.ix2 r q) = _
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ValueIdx.ix2 r q) ((ValueIdx.contrEquiv1 Cert.ReferenceIdeal.dot_S100000x128_S128x64_S100000x64_1_0_0_1_n_n 128 rfl rfl).symm k) = ValueIdx.ix2 r k := funext fun a => Fin.ext (by
    match a with
    | ⟨0, _⟩ => exact rlhs_0 _ _
    | ⟨1, _⟩ => exact (rlhs_1 _ _).trans hk)
  have er : Cert.ReferenceIdeal.dot_S100000x128_S128x64_S100000x64_1_0_0_1_n_n.rhsIdx (ValueIdx.ix2 r q) ((ValueIdx.contrEquiv1 Cert.ReferenceIdeal.dot_S100000x128_S128x64_S100000x64_1_0_0_1_n_n 128 rfl rfl).symm k) = ValueIdx.ix2 k q := funext fun a => Fin.ext (by
    match a with
    | ⟨0, _⟩ => exact (rrhs_0 _ _).trans hk
    | ⟨1, _⟩ => exact rrhs_1 _ _)
  rw [el, er]

/-- What point t writes back is block t of the reference's product of the two arrays the grid reads. -/
theorem flushed_eq (c : Dev nD) (t : Fin cfg2.N) :
    (dat2 V c).flushed 2 t = ((cfg2.win 2).blk t).view.read (Elt Ideal) (G (V c main_v46) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨-, -, -, -, e4, e5⟩ := idx_facts t
  have ht : t.val < 20 := lt_of_lt_of_eq t.isLt (show cfg2.N = 20 from N_2)
  funext y
  obtain ⟨p, q, rfl⟩ : ∃ (p : Fin 5000) (q : Fin 64), y = ValueIdx.ix2 p q := ⟨y 0, y 1, ValueIdx.eq_ix2 y⟩
  rw [View.read_apply]
  have hr : 5000 * t.val + p.val < 100000 := by have := p.isLt; omega
  have hi : ((cfg2.win 2).blk t).view.emb (ValueIdx.ix2 p q) = ValueIdx.ix2 (⟨5000 * t.val + p.val, hr⟩ : Fin 100000) q := by
    funext a; apply Fin.ext
    match a with
    | ⟨0, _⟩ => show win2_2.index t (0 : Fin 2) * 5000 + 1 * p.val = 5000 * t.val + p.val; rw [e4]; omega
    | ⟨1, _⟩ => show win2_2.index t (1 : Fin 2) * 64 + 1 * q.val = q.val; rw [e5]; omega
  rw [hi]
  refine (pay_apply _ _ p q).trans ?_
  refine Eq.trans ?_ (ref_apply _ _ ⟨_, hr⟩ q).symm
  refine Finset.sum_congr rfl fun k _ => ?_
  rw [iblk_left V c t p k ⟨_, hr⟩ rfl, iblk_right V c t k q]

/-- An index of the result array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v47).slice (win2_2.rect t)).set ↔ _
  rw [View.set_slice_whole, Rect.mem_set_unit]
  exact Iff.rfl

/-- Row r of the result array is in the block of point r / 5000: the row blocks cover the array. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, e4, e5⟩ := idx_facts t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 64 ≤ (i 1).val ∧ (i 1).val < win2_2.index t (1 : Fin 2) * 64 + 64; rw [e5]; omega

/-- After the second projection's grid its result array is the reference's product of the two arrays the grid read. -/
theorem arr (c : Dev nD) :
    (Gen.dat2 V c).arrAt 2 cfg2.N
      = Host.dotGeneral (F := Ideal) (φ₁ := .f32) (φ₂ := .f32) Cert.ReferenceIdeal.dot_S100000x128_S128x64_S100000x64_1_0_0_1_n_n none (V c main_v46) (V c main_arg4) :=
  (dat2 V c).arrAt_eq_of_cover 2 (G (V c main_v46) (V c main_arg4)) (fun t _ => flushed_eq V c t) cover

end Cert.KernelIdeal.Region2

end
-- ==== Proof.Region3.lean ====
/- The last grid (bias add, then the log-softmax of each row of 64), at the extended reals. The grid's body on a block of
   5000 rows and the reference's host chain on the whole array are both read entry by entry as one expression (lsmRow) of
   a row; each point's block of the result is then that block of the host chain's function of the two arrays the grid
   reads, and the twenty blocks tile the array. -/
import Idealize.ShloMosaic.Lib.Pipeline.Value
import Idealize.ShloMosaic.Lib.ValueIdx
import Idealize.ShloMosaic.Lib.ValueLayout
import Idealize.ShloMosaic.PureOps.Ideal.Laws
import proofs.«178928_j38628935860963_1_alg».proof.Proof.Gen.KernelIdeal.Frame
import proofs.«178928_j38628935860963_1_alg».proof.Proof.RefRead

set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.KernelIdeal.Region3

/-! ## A row's log-softmax -/

/-- The greatest of a row's 64 entries, folded from −∞ (the f32 word 0xFF800000). -/
def rowMax (f : Fin 64 → Ideal .f32) : Ideal .f32 :=
  (Finset.univ : Finset (Fin 64)).fold max (Ideal.ofBits .f32 0xFF800000#32) f

/-- Entry q of the log-softmax of a row f: with M the row's maximum, (f q − M) − log (∑ k, exp (f k − M)). -/
def lsmRow (f : Fin 64 → Ideal .f32) (q : Fin 64) : Ideal .f32 :=
  (f q - rowMax f) - Ideal.log (∑ k : Fin 64, Ideal.exp (f k - rowMax f))

/-- −∞ is the least extended real: the maximum of it and y is y. -/
theorem max_negInf (y : Ideal .f32) : max (Ideal.ofBits .f32 0xFF800000#32) y = y := by
  simp [Ideal.ofBits, Ideal.ieee]

/-! ## Layout operations on a column of row values, read at an index -/

/-- An [a] vector cast to the column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index p of an [m, n] array reduced along its rows, with column k put back, is (p, k). -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-! ## The grid's body on a block -/

/-- The block with the bias row added to each of its rows. -/
def zK (x0 : Vec Ideal S5000x64 .f32) (x1 : Vec Ideal S64 .f32) : FVec Ideal S5000x64 .f32 :=
  addf (shapeCast S5000x64 x0 shapeCasts_S5000x64_S5000x64)
    (broadcastTo S5000x64 (shapeCast S1x64 x1 shapeCasts_S64_S1x64) broadcasts_S1x64_S5000x64)

/-- Each row's maximum. -/
def rowMaxK (z : FVec Ideal S5000x64 .f32) : FVec Ideal S5000 .f32 :=
  multiReduction (F := Ideal) .maximumf [1] S5000 z 0xFF800000#32 reduces_S5000x64_S5000 (.inl rfl) rfl

/-- A value per row subtracted from every entry of its row. -/
def subColK (z : FVec Ideal S5000x64 .f32) (m : FVec Ideal S5000 .f32) : FVec Ideal S5000x64 .f32 :=
  subf z (broadcastTo S5000x64 (shapeCast S5000x1 m shapeCasts_S5000_S5000x1) broadcasts_S5000x1_S5000x64)

/-- Each row's sum. -/
def rowSumK (e : FVec Ideal S5000x64 .f32) : FVec Ideal S5000 .f32 :=
  multiReduction (F := Ideal) .add [1] S5000 e 0x00000000#32 reduces_S5000x64_S5000 (.inl rfl) rfl

/-- The logarithm of a value per row subtracted from every entry of its row. -/
def subLogColK (sh : FVec Ideal S5000x64 .f32) (s : FVec Ideal S5000 .f32) : FVec Ideal S5000x64 .f32 :=
  subf sh (broadcastTo S5000x64 (log (shapeCast S5000x1 s shapeCasts_S5000_S5000x1)) broadcasts_S5000x1_S5000x64)

/-- The body's arithmetic is the composition of those steps. -/
theorem pay_eq (x0 : Vec Ideal S5000x64 .f32) (x1 : Vec Ideal S64 .f32) :
    k3_pay1 x0 x1 = subLogColK (subColK (zK x0 x1) (rowMaxK (zK x0 x1)))
      (rowSumK (exp (subColK (zK x0 x1) (rowMaxK (zK x0 x1))))) := rfl

theorem zK_apply (x0 : Vec Ideal S5000x64 .f32) (x1 : Vec Ideal S64 .f32) (p : Fin 5000) (k : Fin 64) :
    zK x0 x1 (ix2 p k) = x0 (ix2 p k) + x1 (ix1 k) := by
  unfold zK
  rw [addf_apply, shapeCast_self, broadcastTo_1b_ab_apply, shapeCast_a_1a_apply]

theorem rowMaxK_apply (z : FVec Ideal S5000x64 .f32) (p : Fin 5000) :
    rowMaxK z (ix1 p) = rowMax (fun k : Fin 64 => z (ix2 p k)) := by
  unfold rowMaxK rowMax
  refine (Ideal.multiReduction_maximumf_single z 0xFF800000#32 reduces_S5000x64_S5000 (.inl rfl) rfl (ix1 p)).trans ?_
  exact congrArg (fun f => Finset.fold max (Ideal.ofBits .f32 0xFF800000#32) f (Finset.univ : Finset (Fin 64)))
    (funext fun k => congrArg z (lift_row reduces_S5000x64_S5000 p k))

theorem subColK_apply (z : FVec Ideal S5000x64 .f32) (m : FVec Ideal S5000 .f32) (p : Fin 5000) (k : Fin 64) :
    subColK z m (ix2 p k) = z (ix2 p k) - m (ix1 p) := by
  unfold subColK
  rw [subf_apply, broadcastTo_a1_ab_apply, shapeCast_a_a1_apply]

theorem rowSumK_apply (e : FVec Ideal S5000x64 .f32) (p : Fin 5000) :
    rowSumK e (ix1 p) = ∑ k : Fin 64, e (ix2 p k) := by
  unfold rowSumK
  refine (Ideal.multiReduction_add_single e 0x00000000#32 reduces_S5000x64_S5000 (.inl rfl) rfl (ix1 p)).trans ?_
  exact Finset.sum_congr rfl fun k _ => congrArg e (lift_row reduces_S5000x64_S5000 p k)

theorem subLogColK_apply (sh : FVec Ideal S5000x64 .f32) (s : FVec Ideal S5000 .f32) (p : Fin 5000) (q : Fin 64) :
    subLogColK sh s (ix2 p q) = sh (ix2 p q) - Ideal.log (s (ix1 p)) := by
  unfold subLogColK
  rw [subf_apply, broadcastTo_a1_ab_apply]
  show sh (ix2 p q) - FloatOps.log (shapeCast S5000x1 s shapeCasts_S5000_S5000x1 (ix2 p (0 : Fin 1))) = _
  rw [shapeCast_a_a1_apply, Ideal.log_def]

/-- THE BODY AT AN ENTRY: entry (p, q) of what the body stores is entry q of the log-softmax of row p of the block
    with the bias row added. -/
theorem pay_apply (x0 : Vec Ideal S5000x64 .f32) (x1 : Vec Ideal S64 .f32) (p : Fin 5000) (q : Fin 64) :
    k3_pay1 x0 x1 (ix2 p q) = lsmRow (fun k => x0 (ix2 p k) + x1 (ix1 k)) q := by
  have hf : (fun k : Fin 64 => zK x0 x1 (ix2 p k)) = fun k => x0 (ix2 p k) + x1 (ix1 k) :=
    funext fun k => zK_apply x0 x1 p k
  have hsh : ∀ k : Fin 64, subColK (zK x0 x1) (rowMaxK (zK x0 x1)) (ix2 p k)
      = (x0 (ix2 p k) + x1 (ix1 k)) - rowMax (fun k => x0 (ix2 p k) + x1 (ix1 k)) := fun k => by
    rw [subColK_apply, rowMaxK_apply, hf, zK_apply]
  rw [pay_eq, subLogColK_apply, rowSumK_apply, hsh]
  unfold lsmRow
  refine congrArg (fun s => _ - Ideal.log s) (Finset.sum_congr rfl fun k _ => ?_)
  show FloatOps.exp (subColK (zK x0 x1) (rowMaxK (zK x0 x1)) (ix2 p k)) = _
  rw [Ideal.exp_def, hsh]

/-! ## The reference's host chain on the whole array -/

/-- The array with the bias row added to each of its rows. -/
def zR (a : FVec Ideal Cert.ReferenceIdeal.S100000x64 .f32) (b : FVec Ideal Cert.ReferenceIdeal.S64 .f32) :
    FVec Ideal Cert.ReferenceIdeal.S100000x64 .f32 :=
  addf a (broadcastInDim Cert.ReferenceIdeal.S100000x64 ![0, 1] Cert.ReferenceIdeal.Gen.bcast_S1x64_S100000x64_0_1
    (broadcastInDim Cert.ReferenceIdeal.S1x64 ![1] Cert.ReferenceIdeal.Gen.bcast_S64_S1x64_1 b))

/-- Each row's maximum, as the host takes it: the maximum of −∞ and the reduce from −∞. -/
def rowMaxR (z : FVec Ideal Cert.ReferenceIdeal.S100000x64 .f32) : FVec Ideal Cert.ReferenceIdeal.S100000 .f32 :=
  maximumf
    (broadcastInDim Cert.ReferenceIdeal.S100000 ![] Cert.ReferenceIdeal.Gen.bcast_S_S100000
      (constant (F := Ideal) Cert.ReferenceIdeal.S_ .f32 0xFF800000#32))
    (Host.reduce FloatOps.maximumf z (constant (F := Ideal) Cert.ReferenceIdeal.S_ .f32 0xFF800000#32)
      Cert.ReferenceIdeal.Gen.reducesTo_S100000x64_S100000_d1 Cert.ReferenceIdeal.Gen.h_S_)

/-- A value per row subtracted from every entry of its row. -/
def subColR (z : FVec Ideal Cert.ReferenceIdeal.S100000x64 .f32) (m : FVec Ideal Cert.ReferenceIdeal.S100000 .f32) :
    FVec Ideal Cert.ReferenceIdeal.S100000x64 .f32 :=
  subf z (broadcastInDim Cert.ReferenceIdeal.S100000x64 ![0, 1] Cert.ReferenceIdeal.Gen.bcast_S100000x1_S100000x64_0_1
    (broadcastInDim Cert.ReferenceIdeal.S100000x1 ![0] Cert.ReferenceIdeal.Gen.bcast_S100000_S100000x1_0 m))

/-- Each row's sum, from zero. -/
def rowSumR (e : FVec Ideal Cert.ReferenceIdeal.S100000x64 .f32) : FVec Ideal Cert.ReferenceIdeal.S100000 .f32 :=
  Host.reduceAdd e (constant (F := Ideal) Cert.ReferenceIdeal.S_ .f32 0x00000000#32)
    Cert.ReferenceIdeal.Gen.reducesTo_S100000x64_S100000_d1 Cert.ReferenceIdeal.Gen.h_S_

/-- The logarithm of a value per row subtracted from every entry of its row. -/
def subLogColR (sh : FVec Ideal Cert.ReferenceIdeal.S100000x64 .f32) (s : FVec Ideal Cert.ReferenceIdeal.S100000 .f32) :
    FVec Ideal Cert.ReferenceIdeal.S100000x64 .f32 :=
  subf sh (broadcastInDim Cert.ReferenceIdeal.S100000x64 ![0, 1] Cert.ReferenceIdeal.Gen.bcast_S100000x1_S100000x64_0_1
    (Host.log (broadcastInDim Cert.ReferenceIdeal.S100000x1 ![0] Cert.ReferenceIdeal.Gen.bcast_S100000_S100000x1_0 s)))

/-- Adding the bias row to every row and then taking the log-softmax of each row, as the reference's host chain spells it. -/
def logSoftmaxBias (a : (⟨Cert.ReferenceIdeal.S100000x64, .f32⟩ : BufTy).Contents (Elt Ideal))
    (b : (⟨Cert.ReferenceIdeal.S64, .f32⟩ : BufTy).Contents (Elt Ideal)) :
    (⟨Cert.ReferenceIdeal.S100000x64, .f32⟩ : BufTy).Contents (Elt Ideal) :=
  subLogColR (subColR (zR a b) (rowMaxR (zR a b))) (rowSumR (Host.exp (subColR (zR a b) (rowMaxR (zR a b)))))

/-- A column [100000, 1] broadcast along the rows reads, at (r, k), the column at row r. -/
theorem bcastCol_apply (x : FVec Ideal Cert.ReferenceIdeal.S100000x1 .f32) (r : Fin 100000) (k : Fin 64) :
    broadcastInDim Cert.ReferenceIdeal.S100000x64 ![0, 1] Cert.ReferenceIdeal.Gen.bcast_S100000x1_S100000x64_0_1 x (ix2 r k)
      = x (ix2 r (0 : Fin 1)) :=
  broadcastInDim_apply _ Cert.ReferenceIdeal.Gen.bcast_S100000x1_S100000x64_0_1 x (ix2 r k) (ix2 r (0 : Fin 1))
    (fun ax => match ax with
      | ⟨0, _⟩ => by show r.val = if (100000 : Nat) = 1 then 0 else r.val; rw [if_neg (by decide)]
      | ⟨1, _⟩ => by show 0 = if (1 : Nat) = 1 then 0 else k.val; rw [if_pos rfl])

/-- A [100000] vector set as a column reads, at (r, u), the vector at r. -/
theorem col_apply (m : FVec Ideal Cert.ReferenceIdeal.S100000 .f32) (r : Fin 100000) (u : Fin 1) :
    broadcastInDim Cert.ReferenceIdeal.S100000x1 ![0] Cert.ReferenceIdeal.Gen.bcast_S100000_S100000x1_0 m (ix2 r u) = m (ix1 r) :=
  broadcastInDim_apply _ Cert.ReferenceIdeal.Gen.bcast_S100000_S100000x1_0 m (ix2 r u) (ix1 r)
    (fun ax => match ax with
      | ⟨0, _⟩ => by show r.val = if (100000 : Nat) = 1 then 0 else r.val; rw [if_neg (by decide)])

theorem zR_apply (a : FVec Ideal Cert.ReferenceIdeal.S100000x64 .f32) (b : FVec Ideal Cert.ReferenceIdeal.S64 .f32)
    (r : Fin 100000) (k : Fin 64) : zR a b (ix2 r k) = a (ix2 r k) + b (ix1 k) := by
  unfold zR
  rw [addf_apply]
  refine congrArg (a (ix2 r k) + ·) ?_
  refine (broadcastInDim_apply _ Cert.ReferenceIdeal.Gen.bcast_S1x64_S100000x64_0_1 _ (ix2 r k) (ix2 (0 : Fin 1) k)
    (fun ax => match ax with
      | ⟨0, _⟩ => by show 0 = if (1 : Nat) = 1 then 0 else r.val; rw [if_pos rfl]
      | ⟨1, _⟩ => by show k.val = if (64 : Nat) = 1 then 0 else k.val; rw [if_neg (by decide)])).trans ?_
  exact broadcastInDim_apply _ Cert.ReferenceIdeal.Gen.bcast_S64_S1x64_1 b (ix2 (0 : Fin 1) k) (ix1 k)
    (fun ax => match ax with
      | ⟨0, _⟩ => by show k.val = if (64 : Nat) = 1 then 0 else k.val; rw [if_neg (by decide)])

theorem rowMaxR_apply (z : FVec Ideal Cert.ReferenceIdeal.S100000x64 .f32) (r : Fin 100000) :
    rowMaxR z (ix1 r) = rowMax (fun k : Fin 64 => z (ix2 r k)) := by
  have hR : Cert.ReferenceIdeal.S100000x64.Reduces [1] Cert.ReferenceIdeal.S100000 := by decide
  have h1 : broadcastInDim Cert.ReferenceIdeal.S100000 ![] Cert.ReferenceIdeal.Gen.bcast_S_S100000
      (constant (F := Ideal) Cert.ReferenceIdeal.S_ .f32 0xFF800000#32) (ix1 r) = Ideal.ofBits .f32 0xFF800000#32 :=
    (broadcastInDim_apply _ Cert.ReferenceIdeal.Gen.bcast_S_S100000 _ (ix1 r) (fun a => a.elim0) (fun a => a.elim0)).trans
      (constant_apply _ _)
  have h2 := Host.reduce_eq_fold_single FloatOps.maximumf z
    (constant (F := Ideal) Cert.ReferenceIdeal.S_ .f32 0xFF800000#32)
    Cert.ReferenceIdeal.Gen.reducesTo_S100000x64_S100000_d1 hR Cert.ReferenceIdeal.Gen.h_S_ (ix1 r)
  unfold rowMaxR rowMax
  rw [maximumf_apply, h1, h2, constant_apply]
  refine (max_negInf _).trans ?_
  exact congrArg (fun f => Finset.fold max (Ideal.ofBits .f32 0xFF800000#32) f (Finset.univ : Finset (Fin 64)))
    (funext fun k => congrArg z (lift_row hR r k))

theorem subColR_apply (z : FVec Ideal Cert.ReferenceIdeal.S100000x64 .f32) (m : FVec Ideal Cert.ReferenceIdeal.S100000 .f32)
    (r : Fin 100000) (k : Fin 64) : subColR z m (ix2 r k) = z (ix2 r k) - m (ix1 r) := by
  unfold subColR
  rw [subf_apply, bcastCol_apply, col_apply]

theorem rowSumR_apply (e : FVec Ideal Cert.ReferenceIdeal.S100000x64 .f32) (r : Fin 100000) :
    rowSumR e (ix1 r) = ∑ k : Fin 64, e (ix2 r k) := by
  have hR : Cert.ReferenceIdeal.S100000x64.Reduces [1] Cert.ReferenceIdeal.S100000 := by decide
  unfold rowSumR
  simp only [Host.reduceAdd, Ideal.hostReduceAdd_def]
  rw [Ideal.hostReduceAdd_single Cert.ReferenceIdeal.Gen.reducesTo_S100000x64_S100000_d1 hR]
  refine (congrArg₂ (· + ·) Ideal.ofBits_zero_f32
    (Finset.sum_congr rfl fun k _ => congrArg e (lift_row hR r k))).trans (zero_add _)

theorem subLogColR_apply (sh : FVec Ideal Cert.ReferenceIdeal.S100000x64 .f32) (s : FVec Ideal Cert.ReferenceIdeal.S100000 .f32)
    (r : Fin 100000) (q : Fin 64) : subLogColR sh s (ix2 r q) = sh (ix2 r q) - Ideal.log (s (ix1 r)) := by
  unfold subLogColR
  rw [subf_apply, bcastCol_apply]
  show sh (ix2 r q) - FloatOps.hostUnary .log (broadcastInDim Cert.ReferenceIdeal.S100000x1 ![0]
    Cert.ReferenceIdeal.Gen.bcast_S100000_S100000x1_0 s (ix2 r (0 : Fin 1))) = _
  rw [col_apply, Ideal.hostUnary_log_def]

/-- THE REFERENCE AT AN ENTRY: entry (r, q) of the host chain's result is entry q of the log-softmax of row r of the
    array with the bias row added. -/
theorem logSoftmaxBias_apply (a : FVec Ideal Cert.ReferenceIdeal.S100000x64 .f32) (b : FVec Ideal Cert.ReferenceIdeal.S64 .f32)
    (r : Fin 100000) (q : Fin 64) :
    logSoftmaxBias a b (ix2 r q) = lsmRow (fun k => a (ix2 r k) + b (ix1 k)) q := by
  have hf : (fun k : Fin 64 => zR a b (ix2 r k)) = fun k => a (ix2 r k) + b (ix1 k) :=
    funext fun k => zR_apply a b r k
  have hsh : ∀ k : Fin 64, subColR (zR a b) (rowMaxR (zR a b)) (ix2 r k)
      = (a (ix2 r k) + b (ix1 k)) - rowMax (fun k => a (ix2 r k) + b (ix1 k)) := fun k => by
    rw [subColR_apply, rowMaxR_apply, hf, zR_apply]
  unfold logSoftmaxBias
  rw [subLogColR_apply, rowSumR_apply, hsh]
  unfold lsmRow
  refine congrArg (fun s => _ - Ideal.log s) (Finset.sum_congr rfl fun k _ => ?_)
  show FloatOps.hostUnary .exp (subColR (zR a b) (rowMaxR (zR a b)) (ix2 r k)) = _
  rw [Ideal.hostUnary_exp_def, hsh]

/-! ## The reference's last stage -/

/-- The reference's last stage is that chain of its scatter-add stage and the bias argument. -/
theorem ref_eq (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal))
    (x4 : (⟨Cert.ReferenceIdeal.S128x64, .f32⟩ : BufTy).Contents (Elt Ideal))
    (x5 : (⟨Cert.ReferenceIdeal.S64, .f32⟩ : BufTy).Contents (Elt Ideal)) :
    Cert.ReferenceIdeal.ReadP.val_main_v68 (F := Ideal) x0 x1 x2 x3 x4 x5
      = logSoftmaxBias (Cert.ReferenceIdeal.ReadP.val_main_v64 (F := Ideal) x0 x1 x2 x3 x4) x5 := by
  unfold Cert.ReferenceIdeal.ReadP.val_main_v68 Cert.ReferenceIdeal.ReadP.val_main_call2_v10
    Cert.ReferenceIdeal.ReadP.val_main_call2_v9 Cert.ReferenceIdeal.ReadP.val_main_call2_v8
    Cert.ReferenceIdeal.ReadP.val_main_call2_v7 Cert.ReferenceIdeal.ReadP.val_main_call2_cst_1
    Cert.ReferenceIdeal.ReadP.val_main_call2_v6 Cert.ReferenceIdeal.ReadP.val_main_call2_v5
    Cert.ReferenceIdeal.ReadP.val_main_call2_v4 Cert.ReferenceIdeal.ReadP.val_main_call2_v3
    Cert.ReferenceIdeal.ReadP.val_main_call2_v2 Cert.ReferenceIdeal.ReadP.val_main_call2_v1
    Cert.ReferenceIdeal.ReadP.val_main_call2_cst_0 Cert.ReferenceIdeal.ReadP.val_main_call2_v0
    Cert.ReferenceIdeal.ReadP.val_main_call2_cst Cert.ReferenceIdeal.ReadP.val_main_v67
    Cert.ReferenceIdeal.ReadP.val_main_v66 Cert.ReferenceIdeal.ReadP.val_main_v65
  generalize Cert.ReferenceIdeal.ReadP.val_main_v64 (F := Ideal) x0 x1 x2 x3 x4 = a
  rfl

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has twenty points. -/
theorem point_lt (t : Fin cfg3.N) : t.val < 20 := lt_of_lt_of_eq t.isLt N_3

/-- The index maps over the grid: point t reads row block t of the first array, the whole bias row, and writes row
    block t of the result. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- Row p of point t's block of the first array is row 5000 t + p of the array. -/
theorem iblk0_apply (c : Dev nD) (t : Fin cfg3.N) (p : Fin 5000) (k : Fin 64) (r : Fin 100000)
    (hr : r.val = 5000 * t.val + p.val) :
    (iblk3 V c 0 t : Vec Ideal S5000x64 .f32) (ix2 p k) = (V c main_v60 : S100000x64.Idx → Elt Ideal .f32) (ix2 r k) := by
  obtain ⟨e0, e1, e2, e3, e4⟩ := idx_facts t
  unfold iblk3
  rw [View.read_apply]
  show V c main_v60 _ = V c main_v60 _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 64 + 1 * k.val = k.val; rw [e1]; omega

/-- Every point's block of the bias row is the bias row. -/
theorem iblk1_apply (c : Dev nD) (t : Fin cfg3.N) (k : Fin 64) :
    (iblk3 V c 1 t : Vec Ideal S64 .f32) (ix1 k) = (V c main_arg5 : S64.Idx → Elt Ideal .f32) (ix1 k) := by
  obtain ⟨e0, e1, e2, e3, e4⟩ := idx_facts t
  unfold iblk3
  rw [View.read_apply]
  show V c main_arg5 _ = V c main_arg5 _
  congr 1
  funext a
  apply Fin.ext
  match a with
  | ⟨0, _⟩ => show win3_1.index t (0 : Fin 1) * 64 + 1 * k.val = k.val; rw [e2]; omega

/-- WHAT POINT t WRITES BACK is block t of the host chain's function of the two arrays the grid reads. -/
theorem flushed_eq (c : Dev nD) (t : Fin cfg3.N) :
    (dat3 V c).flushed 2 t
      = ((cfg3.win 2).blk t).view.read (Elt Ideal) (logSoftmaxBias (V c main_v60) (V c main_arg5)) := by
  show (cfg3.win 2).cut (grid3.coords t) ((dat3 V c).after 2 t) = _
  rw [after3_2]
  unfold out3_2
  rw [View.canon_unit_zero hz2]
  simp only [View.ld_unit_zero (S := S5000x64) hz2, View.ld_unit_zero (S := S64) hz1]
  obtain ⟨e0, e1, e2, e3, e4⟩ := idx_facts t
  have ht := point_lt t
  refine funext fun (y : S5000x64.Idx) => ?_
  obtain ⟨p, q, rfl⟩ : ∃ (p : Fin 5000) (q : Fin 64), y = ix2 p q := ⟨y 0, y 1, eq_ix2 y⟩
  show k3_pay1 (iblk3 V c 0 t : Vec Ideal S5000x64 .f32) (iblk3 V c 1 t : Vec Ideal S64 .f32) (ix2 p q)
    = logSoftmaxBias (V c main_v60) (V c main_arg5) (((cfg3.win 2).blk t).view.emb (ix2 p q))
  have hemb : ((cfg3.win 2).blk t).view.emb (ix2 p q)
      = (ix2 (⟨5000 * t.val + p.val, by omega⟩ : Fin 100000) q : S100000x64.Idx) := by
    funext a
    apply Fin.ext
    match a with
    | ⟨0, _⟩ => show win3_2.index t (0 : Fin 2) * 5000 + 1 * p.val = 5000 * t.val + p.val; rw [e3]; omega
    | ⟨1, _⟩ => show win3_2.index t (1 : Fin 2) * 64 + 1 * q.val = q.val; rw [e4]; omega
  refine (pay_apply (iblk3 V c 0 t) (iblk3 V c 1 t) p q).trans ?_
  refine Eq.trans ?_ (congrArg (logSoftmaxBias (V c main_v60) (V c main_arg5)) hemb.symm)
  refine Eq.trans ?_ (logSoftmaxBias_apply (V c main_v60) (V c main_arg5) _ q).symm
  exact congrArg (fun f => lsmRow f q) (funext fun k =>
    congrArg₂ (· + ·) (iblk0_apply V c t p k _ rfl) (iblk1_apply V c t k))

/-- An index of the result array is in point t's block iff each coordinate is in the block's range on its axis. -/
theorem mem_blk (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v61).slice (win3_2.rect t)).set ↔ _
  rw [View.set_slice_whole, Rect.mem_set_unit]
  exact Iff.rfl

/-- The twenty row blocks tile the array: row r is in the block of point r / 5000. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by show (i 0).val / 5000 < grid3.N; rw [N_3]; omega⟩, rfl⟩
  obtain ⟨e0, e1, e2, e3, e4⟩ := idx_facts t
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    rw [e3, ht]; omega
  | ⟨1, _⟩ =>
    show win3_2.index t (1 : Fin 2) * 64 ≤ (i 1).val ∧ (i 1).val < win3_2.index t (1 : Fin 2) * 64 + 64
    rw [e4]; omega

/-- After the last grid its result array is that function of the two arrays the grid read. -/
theorem arr (c : Dev nD) : (dat3 V c).arrAt 2 cfg3.N = logSoftmaxBias (V c main_v60) (V c main_arg5) :=
  (dat3 V c).arrAt_eq_of_cover 2 (logSoftmaxBias (V c main_v60) (V c main_arg5))
    (fun t _ => flushed_eq V c t) (fun i => cover i)

end Cert.KernelIdeal.Region3

end
-- ==== Proof.KernelHost.lean ====
/-
  The kernel program's buffers at each boundary between its segments, as the reference's stages of the six arguments.
  The stretches of host operations are the reference's own operations on the same operands (index vectors row and col with
  the self loops appended, the degrees by a scatter-add of ones, their inverse square roots where positive, the edge weights
  as products of two gathers, and per layer a gather of projected rows, a scaling and a scatter-add); the one difference is
  that the reference multiplies the first gathered factor by the all-ones vector, and a · 1 · b = a · b on the extended
  reals. Between the stretches stand the four grids, whose result arrays are the reference's product, bias-and-relu,
  product and bias-and-log-softmax stages of the arrays they read. A buffer that a segment does not write is carried over
  it unchanged.
-/
import Idealize.ShloMosaic.Lib.StableHlo.Run
import Idealize.ShloMosaic.Lib.ValueIdx
import Idealize.ShloMosaic.PureOps.Ideal.Laws
import proofs.«178928_j38628935860963_1_alg».proof.Proof.Gen.KernelIdeal.Frame
import proofs.«178928_j38628935860963_1_alg».proof.Proof.RefRead
import proofs.«178928_j38628935860963_1_alg».proof.Proof.Region0
import proofs.«178928_j38628935860963_1_alg».proof.Proof.Region1
import proofs.«178928_j38628935860963_1_alg».proof.Proof.Region2
import proofs.«178928_j38628935860963_1_alg».proof.Proof.Region3

noncomputable section

open Idealize.ShloMosaic Idealize.ShloMosaic.TcCoe Idealize.SL.Sem Idealize.ShloMosaic.StableHlo
open Cert.KernelIdeal Cert.KernelIdeal.Gen

namespace Cert.KernelIdeal.HostValue

open Cert.ReferenceIdeal.ReadP

variable (m : (ℓ : Loc nD τ sig) → Buf (Elt Ideal) ℓ) (ρ : Dev nD → PrngReg) (c : Dev nD)

/-- A stretch of host operations leaves a buffer that none of them writes as it was. -/
macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-- One pass that reads a buffer after a stretch of host operations as the operations' term of the stretch's entry
    contents: the fold unfolded, each operation's result at its own buffer its function's value and at any other buffer what
    was there, and the identity casts of an outlined function's typed references removed. -/
macro "stretch_results" : tactic =>
  `(tactic| simp (disch := decide) only [cast_eq, after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])

/-! ## The first stretch: row, col, the degrees' comparison and inverse square root -/

theorem v5_W1 : W1 m ρ c (Proc.devRef .tc main_v5) = val_main_v5 (F := Ideal) (m ((c.tc : Thread nD τ).loc main_arg1)) := by
  show StableHlo.after hostOps0 (W0 m ρ c) (Proc.devRef .tc main_v5) = _
  after_results
  rfl
theorem v6_W1 : W1 m ρ c (Proc.devRef .tc main_v6) = val_main_v6 (F := Ideal) (m ((c.tc : Thread nD τ).loc main_arg1)) := by
  show StableHlo.after hostOps0 (W0 m ρ c) (Proc.devRef .tc main_v6) = _
  after_results
  rfl
theorem v12_W1 : W1 m ρ c (Proc.devRef .tc main_v12) = val_main_v12 (F := Ideal) (m ((c.tc : Thread nD τ).loc main_arg1)) := by
  show StableHlo.after hostOps0 (W0 m ρ c) (Proc.devRef .tc main_v12) = _
  after_results
  rfl
theorem v15_W1 : W1 m ρ c (Proc.devRef .tc main_v15) = val_main_v15 (F := Ideal) (m ((c.tc : Thread nD τ).loc main_arg1)) := by
  show StableHlo.after hostOps0 (W0 m ρ c) (Proc.devRef .tc main_v15) = _
  after_results
  rfl
theorem cst3_W1 : W1 m ρ c (Proc.devRef .tc main_cst_3) = val_main_cst_3 (F := Ideal) := by
  show StableHlo.after hostOps0 (W0 m ρ c) (Proc.devRef .tc main_cst_3) = _
  after_results
  rfl

/-! ## The select: the inverse square roots where the degree is positive, zero elsewhere -/

theorem v16_W2 : W2 m ρ c (Proc.devRef .tc main_v16) = val_main_v16 (F := Ideal) (m ((c.tc : Thread nD τ).loc main_arg1)) := by
  show StableHlo.after hostOps0_1 (W1 m ρ c) (Proc.devRef .tc main_v16) = _
  generalize hW : W1 m ρ c = Wv
  stretch_results
  subst hW
  rw [v12_W1, v15_W1, cst3_W1]
  rfl
theorem v5_W2 : W2 m ρ c (Proc.devRef .tc main_v5) = val_main_v5 (F := Ideal) (m ((c.tc : Thread nD τ).loc main_arg1)) :=
  (by host_keeps hostOps0_1 : W2 m ρ c (Proc.devRef .tc main_v5) = W1 m ρ c (Proc.devRef .tc main_v5)).trans (v5_W1 m ρ c)
theorem v6_W2 : W2 m ρ c (Proc.devRef .tc main_v6) = val_main_v6 (F := Ideal) (m ((c.tc : Thread nD τ).loc main_arg1)) :=
  (by host_keeps hostOps0_1 : W2 m ρ c (Proc.devRef .tc main_v6) = W1 m ρ c (Proc.devRef .tc main_v6)).trans (v6_W1 m ρ c)

/-! ## The edge weights -/

/-- The all-ones factor of the reference's edge weight changes nothing: a · 1 · b = a · b on the extended reals. -/
theorem mul_ones (a b : FVec Ideal Cert.ReferenceIdeal.S1700000 .f32) :
    mulf (F := Ideal) (mulf (F := Ideal) a (val_main_v7 (F := Ideal))) b = mulf (F := Ideal) a b := by
  funext i
  show a i * val_main_v7 (F := Ideal) i * b i = a i * b i
  rw [val_main_v7_apply, val_main_cst_apply]
  have h1 : Ideal.ofBits .f32 0x3F800000#32 = 1 := IdealRules.sign_bit.ideal_onePat .f32
  show a i * Ideal.ofBits .f32 0x3F800000#32 * b i = a i * b i
  rw [h1, mul_one]

theorem v31_W3 : W3 m ρ c (Proc.devRef .tc main_v31) = val_main_v32 (F := Ideal) (m ((c.tc : Thread nD τ).loc main_arg1)) := by
  show StableHlo.after hostOps0_2 (W2 m ρ c) (Proc.devRef .tc main_v31) = _
  generalize hW : W2 m ρ c = Wv
  stretch_results
  subst hW
  rw [v16_W2, v5_W2, v6_W2]
  exact (mul_ones _ _).symm
theorem v5_W3 : W3 m ρ c (Proc.devRef .tc main_v5) = val_main_v5 (F := Ideal) (m ((c.tc : Thread nD τ).loc main_arg1)) :=
  (by host_keeps hostOps0_2 : W3 m ρ c (Proc.devRef .tc main_v5) = W2 m ρ c (Proc.devRef .tc main_v5)).trans (v5_W2 m ρ c)
theorem v6_W3 : W3 m ρ c (Proc.devRef .tc main_v6) = val_main_v6 (F := Ideal) (m ((c.tc : Thread nD τ).loc main_arg1)) :=
  (by host_keeps hostOps0_2 : W3 m ρ c (Proc.devRef .tc main_v6) = W2 m ρ c (Proc.devRef .tc main_v6)).trans (v6_W2 m ρ c)

/-! ## The arguments, which no host operation writes -/

theorem arg0_W3 : W3 m ρ c (Proc.devRef .tc main_arg0) = (m ((c.tc : Thread nD τ).loc main_arg0)) :=
  ((by host_keeps hostOps0_2 : W3 m ρ c (Proc.devRef .tc main_arg0) = W2 m ρ c (Proc.devRef .tc main_arg0)).trans
    ((by host_keeps hostOps0_1 : W2 m ρ c (Proc.devRef .tc main_arg0) = W1 m ρ c (Proc.devRef .tc main_arg0)).trans
      (by host_keeps hostOps0 : W1 m ρ c (Proc.devRef .tc main_arg0) = W0 m ρ c (Proc.devRef .tc main_arg0))))
theorem arg2_W3 : W3 m ρ c (Proc.devRef .tc main_arg2) = (m ((c.tc : Thread nD τ).loc main_arg2)) :=
  ((by host_keeps hostOps0_2 : W3 m ρ c (Proc.devRef .tc main_arg2) = W2 m ρ c (Proc.devRef .tc main_arg2)).trans
    ((by host_keeps hostOps0_1 : W2 m ρ c (Proc.devRef .tc main_arg2) = W1 m ρ c (Proc.devRef .tc main_arg2)).trans
      (by host_keeps hostOps0 : W1 m ρ c (Proc.devRef .tc main_arg2) = W0 m ρ c (Proc.devRef .tc main_arg2))))
theorem arg3_W3 : W3 m ρ c (Proc.devRef .tc main_arg3) = (m ((c.tc : Thread nD τ).loc main_arg3)) :=
  ((by host_keeps hostOps0_2 : W3 m ρ c (Proc.devRef .tc main_arg3) = W2 m ρ c (Proc.devRef .tc main_arg3)).trans
    ((by host_keeps hostOps0_1 : W2 m ρ c (Proc.devRef .tc main_arg3) = W1 m ρ c (Proc.devRef .tc main_arg3)).trans
      (by host_keeps hostOps0 : W1 m ρ c (Proc.devRef .tc main_arg3) = W0 m ρ c (Proc.devRef .tc main_arg3))))
theorem arg4_W3 : W3 m ρ c (Proc.devRef .tc main_arg4) = (m ((c.tc : Thread nD τ).loc main_arg4)) :=
  ((by host_keeps hostOps0_2 : W3 m ρ c (Proc.devRef .tc main_arg4) = W2 m ρ c (Proc.devRef .tc main_arg4)).trans
    ((by host_keeps hostOps0_1 : W2 m ρ c (Proc.devRef .tc main_arg4) = W1 m ρ c (Proc.devRef .tc main_arg4)).trans
      (by host_keeps hostOps0 : W1 m ρ c (Proc.devRef .tc main_arg4) = W0 m ρ c (Proc.devRef .tc main_arg4))))
theorem arg5_W3 : W3 m ρ c (Proc.devRef .tc main_arg5) = (m ((c.tc : Thread nD τ).loc main_arg5)) :=
  ((by host_keeps hostOps0_2 : W3 m ρ c (Proc.devRef .tc main_arg5) = W2 m ρ c (Proc.devRef .tc main_arg5)).trans
    ((by host_keeps hostOps0_1 : W2 m ρ c (Proc.devRef .tc main_arg5) = W1 m ρ c (Proc.devRef .tc main_arg5)).trans
      (by host_keeps hostOps0 : W1 m ρ c (Proc.devRef .tc main_arg5) = W0 m ρ c (Proc.devRef .tc main_arg5))))

/-! ## The first projection's grid -/

theorem v32_W4 : W4 m ρ c (Proc.devRef .tc main_v32) = val_main_v33 (F := Ideal) (m ((c.tc : Thread nD τ).loc main_arg0)) (m ((c.tc : Thread nD τ).loc main_arg2)) := by
  refine (W4_arr m ρ c 2).trans ((Cert.KernelIdeal.Region0.arr (V3 m ρ) c).trans ?_)
  show val_main_v33 (F := Ideal) (W3 m ρ c (Proc.devRef .tc main_arg0)) (W3 m ρ c (Proc.devRef .tc main_arg2)) = _
  rw [arg0_W3, arg2_W3]
theorem v5_W4 : W4 m ρ c (Proc.devRef .tc main_v5) = val_main_v5 (F := Ideal) (m ((c.tc : Thread nD τ).loc main_arg1)) :=
  (W4_of_ne m ρ c main_v5 (by decide)).trans (v5_W3 m ρ c)
theorem v6_W4 : W4 m ρ c (Proc.devRef .tc main_v6) = val_main_v6 (F := Ideal) (m ((c.tc : Thread nD τ).loc main_arg1)) :=
  (W4_of_ne m ρ c main_v6 (by decide)).trans (v6_W3 m ρ c)
theorem v31_W4 : W4 m ρ c (Proc.devRef .tc main_v31) = val_main_v32 (F := Ideal) (m ((c.tc : Thread nD τ).loc main_arg1)) :=
  (W4_of_ne m ρ c main_v31 (by decide)).trans (v31_W3 m ρ c)
theorem arg3_W4 : W4 m ρ c (Proc.devRef .tc main_arg3) = (m ((c.tc : Thread nD τ).loc main_arg3)) := (W4_of_ne m ρ c main_arg3 (by decide)).trans (arg3_W3 m ρ c)
theorem arg4_W4 : W4 m ρ c (Proc.devRef .tc main_arg4) = (m ((c.tc : Thread nD τ).loc main_arg4)) := (W4_of_ne m ρ c main_arg4 (by decide)).trans (arg4_W3 m ρ c)
theorem arg5_W4 : W4 m ρ c (Proc.devRef .tc main_arg5) = (m ((c.tc : Thread nD τ).loc main_arg5)) := (W4_of_ne m ρ c main_arg5 (by decide)).trans (arg5_W3 m ρ c)

/-! ## The first layer's gather, scaling and scatter-add -/

theorem v45_W5 : W5 m ρ c (Proc.devRef .tc main_v45) = val_main_v46 (F := Ideal) (m ((c.tc : Thread nD τ).loc main_arg0)) (m ((c.tc : Thread nD τ).loc main_arg1)) (m ((c.tc : Thread nD τ).loc main_arg2)) := by
  show StableHlo.after hostOps1 (W4 m ρ c) (Proc.devRef .tc main_v45) = _
  generalize hW : W4 m ρ c = Wv
  stretch_results
  subst hW
  rw [v32_W4, v5_W4, v6_W4, v31_W4]
  rfl
theorem v5_W5 : W5 m ρ c (Proc.devRef .tc main_v5) = val_main_v5 (F := Ideal) (m ((c.tc : Thread nD τ).loc main_arg1)) :=
  (by host_keeps hostOps1 : W5 m ρ c (Proc.devRef .tc main_v5) = W4 m ρ c (Proc.devRef .tc main_v5)).trans (v5_W4 m ρ c)
theorem v6_W5 : W5 m ρ c (Proc.devRef .tc main_v6) = val_main_v6 (F := Ideal) (m ((c.tc : Thread nD τ).loc main_arg1)) :=
  (by host_keeps hostOps1 : W5 m ρ c (Proc.devRef .tc main_v6) = W4 m ρ c (Proc.devRef .tc main_v6)).trans (v6_W4 m ρ c)
theorem v31_W5 : W5 m ρ c (Proc.devRef .tc main_v31) = val_main_v32 (F := Ideal) (m ((c.tc : Thread nD τ).loc main_arg1)) :=
  (by host_keeps hostOps1 : W5 m ρ c (Proc.devRef .tc main_v31) = W4 m ρ c (Proc.devRef .tc main_v31)).trans (v31_W4 m ρ c)
theorem arg3_W5 : W5 m ρ c (Proc.devRef .tc main_arg3) = (m ((c.tc : Thread nD τ).loc main_arg3)) :=
  (by host_keeps hostOps1 : W5 m ρ c (Proc.devRef .tc main_arg3) = W4 m ρ c (Proc.devRef .tc main_arg3)).trans (arg3_W4 m ρ c)
theorem arg4_W5 : W5 m ρ c (Proc.devRef .tc main_arg4) = (m ((c.tc : Thread nD τ).loc main_arg4)) :=
  (by host_keeps hostOps1 : W5 m ρ c (Proc.devRef .tc main_arg4) = W4 m ρ c (Proc.devRef .tc main_arg4)).trans (arg4_W4 m ρ c)
theorem arg5_W5 : W5 m ρ c (Proc.devRef .tc main_arg5) = (m ((c.tc : Thread nD τ).loc main_arg5)) :=
  (by host_keeps hostOps1 : W5 m ρ c (Proc.devRef .tc main_arg5) = W4 m ρ c (Proc.devRef .tc main_arg5)).trans (arg5_W4 m ρ c)

/-! ## The bias-and-relu grid -/

theorem v46_W6 : W6 m ρ c (Proc.devRef .tc main_v46) = val_main_v50 (F := Ideal) (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ((Cert.KernelIdeal.Region1.arr (V5 m ρ) c).trans ?_)
  show Cert.KernelIdeal.Region1.biasRelu (W5 m ρ c (Proc.devRef .tc main_v45)) (W5 m ρ c (Proc.devRef .tc main_arg3)) = _
  rw [v45_W5, arg3_W5]
  exact (Cert.KernelIdeal.Region1.ref_eq _ _ _ _).symm
theorem v5_W6 : W6 m ρ c (Proc.devRef .tc main_v5) = val_main_v5 (F := Ideal) (m ((c.tc : Thread nD τ).loc main_arg1)) :=
  (W6_of_ne m ρ c main_v5 (by decide)).trans (v5_W5 m ρ c)
theorem v6_W6 : W6 m ρ c (Proc.devRef .tc main_v6) = val_main_v6 (F := Ideal) (m ((c.tc : Thread nD τ).loc main_arg1)) :=
  (W6_of_ne m ρ c main_v6 (by decide)).trans (v6_W5 m ρ c)
theorem v31_W6 : W6 m ρ c (Proc.devRef .tc main_v31) = val_main_v32 (F := Ideal) (m ((c.tc : Thread nD τ).loc main_arg1)) :=
  (W6_of_ne m ρ c main_v31 (by decide)).trans (v31_W5 m ρ c)
theorem arg4_W6 : W6 m ρ c (Proc.devRef .tc main_arg4) = (m ((c.tc : Thread nD τ).loc main_arg4)) := (W6_of_ne m ρ c main_arg4 (by decide)).trans (arg4_W5 m ρ c)
theorem arg5_W6 : W6 m ρ c (Proc.devRef .tc main_arg5) = (m ((c.tc : Thread nD τ).loc main_arg5)) := (W6_of_ne m ρ c main_arg5 (by decide)).trans (arg5_W5 m ρ c)

/-! ## The second projection's grid -/

theorem v47_W7 : W7 m ρ c (Proc.devRef .tc main_v47) = val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ((Cert.KernelIdeal.Region2.arr (V6 m ρ) c).trans ?_)
  show Host.dotGeneral (F := Ideal) (φ₁ := .f32) (φ₂ := .f32) Cert.ReferenceIdeal.dot_S100000x128_S128x64_S100000x64_1_0_0_1_n_n none
      (W6 m ρ c (Proc.devRef .tc main_v46)) (W6 m ρ c (Proc.devRef .tc main_arg4)) = _
  rw [v46_W6, arg4_W6]
  rfl
theorem v5_W7 : W7 m ρ c (Proc.devRef .tc main_v5) = val_main_v5 (F := Ideal) (m ((c.tc : Thread nD τ).loc main_arg1)) :=
  (W7_of_ne m ρ c main_v5 (by decide)).trans (v5_W6 m ρ c)
theorem v6_W7 : W7 m ρ c (Proc.devRef .tc main_v6) = val_main_v6 (F := Ideal) (m ((c.tc : Thread nD τ).loc main_arg1)) :=
  (W7_of_ne m ρ c main_v6 (by decide)).trans (v6_W6 m ρ c)
theorem v31_W7 : W7 m ρ c (Proc.devRef .tc main_v31) = val_main_v32 (F := Ideal) (m ((c.tc : Thread nD τ).loc main_arg1)) :=
  (W7_of_ne m ρ c main_v31 (by decide)).trans (v31_W6 m ρ c)
theorem arg5_W7 : W7 m ρ c (Proc.devRef .tc main_arg5) = (m ((c.tc : Thread nD τ).loc main_arg5)) := (W7_of_ne m ρ c main_arg5 (by decide)).trans (arg5_W6 m ρ c)

/-! ## The second layer's gather, scaling and scatter-add -/

theorem v60_W8 : W8 m ρ c (Proc.devRef .tc main_v60) = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show StableHlo.after hostOps3 (W7 m ρ c) (Proc.devRef .tc main_v60) = _
  generalize hW : W7 m ρ c = Wv
  stretch_results
  subst hW
  rw [v47_W7, v5_W7, v6_W7, v31_W7]
  rfl
theorem arg5_W8 : W8 m ρ c (Proc.devRef .tc main_arg5) = (m ((c.tc : Thread nD τ).loc main_arg5)) :=
  (by host_keeps hostOps3 : W8 m ρ c (Proc.devRef .tc main_arg5) = W7 m ρ c (Proc.devRef .tc main_arg5)).trans (arg5_W7 m ρ c)

/-! ## The bias-and-log-softmax grid: the result -/

/-- The kernel program's result buffer at the last boundary is the reference's last stage of the six arguments. -/
theorem result : W9 m ρ c (Proc.devRef .tc main_v61)
    = val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 2).trans ((Cert.KernelIdeal.Region3.arr (V8 m ρ) c).trans ?_)
  show Cert.KernelIdeal.Region3.logSoftmaxBias (W8 m ρ c (Proc.devRef .tc main_v60)) (W8 m ρ c (Proc.devRef .tc main_arg5)) = _
  rw [v60_W8, arg5_W8]
  exact (Cert.KernelIdeal.Region3.ref_eq _ _ _ _ _ _).symm

end Cert.KernelIdeal.HostValue

end
-- ==== Proof.lean ====
/-
  A two-layer graph convolution: a Pallas kernel program against its jnp reference, equal as functions of their six
  arguments on the extended reals.

  Both programs build, from the edge list, the index vectors row and col with one self loop per node appended, the
  degrees deg = (scatter-add of ones at col), dis = deg^(-1/2) where deg > 0 and 0 elsewhere, and the edge weights
  w = dis[row] · dis[col] (the reference writes dis[row] · 1 · dis[col]). A layer is then
      out = scatter-add over col of (h[row] · w),   h = X · W,
  followed by the bias; after the first layer comes the relu, after the second the log-softmax of each row.
  The kernel program computes X · W1 and relu(·)· W2 in grids of 20 row blocks of 5000 rows (the right factor whole at
  every point), adds the bias and applies relu, respectively log-softmax, in two more such grids, and leaves the gathers,
  scalings and scatter-adds to the same host operations the reference uses. On the extended reals a change of float
  format is the identity, a block's product rows are sums of the same products as the whole product's rows, the relu and
  the log-softmax of a row block are those of the same rows of the whole array, max (-∞) x = x and a · 1 = a: so the two
  programs end with the same result array. No step needs the inputs to be finite.

  The modules: Region0 … Region3 (what each grid leaves in its result array), KernelRun (the kernel program's run with the
  result buffer named), KernelHost (the buffers at each segment boundary as the reference's stages), RefOps / RefRun /
  RefRead (the reference's run and its stages read at an index).
-/
import proofs.«178928_j38628935860963_1_alg».proof.Defs
import proofs.«178928_j38628935860963_1_alg».proof.Proof.Gen.Kernel
import proofs.«178928_j38628935860963_1_alg».proof.Proof.Gen.Kernel.Skeleton
import proofs.«178928_j38628935860963_1_alg».proof.Proof.Gen.Kernel.Launch
import proofs.«178928_j38628935860963_1_alg».proof.Proof.Gen.Kernel.Points
import proofs.«178928_j38628935860963_1_alg».proof.Proof.Gen.Kernel.Frame
import proofs.«178928_j38628935860963_1_alg».proof.Proof.Gen.KernelIdeal
import proofs.«178928_j38628935860963_1_alg».proof.Proof.Gen.KernelIdeal.Skeleton
import proofs.«178928_j38628935860963_1_alg».proof.Proof.Gen.KernelIdeal.Launch
import proofs.«178928_j38628935860963_1_alg».proof.Proof.Gen.KernelIdeal.Points
import proofs.«178928_j38628935860963_1_alg».proof.Proof.Gen.KernelIdeal.Frame
import proofs.«178928_j38628935860963_1_alg».proof.Proof.Gen.ReferenceIdeal
import proofs.«178928_j38628935860963_1_alg».proof.Proof.Gen.Pre_finite_inputs
import proofs.«178928_j38628935860963_1_alg».proof.Proof.RefRead
import proofs.«178928_j38628935860963_1_alg».proof.Proof.RefRun
import proofs.«178928_j38628935860963_1_alg».proof.Proof.KernelRun
import proofs.«178928_j38628935860963_1_alg».proof.Proof.KernelHost
import Idealize.ShloMosaic.Adequacy
import Idealize.ShloMosaic.Init

noncomputable section

namespace Cert.Proof

open Idealize.ShloMosaic Idealize.SL.Sem

/-- The reference run's composed result term is the last stage of the launch contents of the six arguments. -/
theorem ref_result_eq (m : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v68 (F := Ideal) m c
      = Cert.ReferenceIdeal.ReadP.val_main_v68 (F := Ideal)
          (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5)) := by
  unfold Cert.ReferenceIdeal.ValueP.res_main_v68; rfl

/-- The kernel program as printed runs and leaves its arguments as launched. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference is host operations only: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)
/-- The ideal pass rewrote nothing. -/
theorem preserves : Cert.preserves_Kernel_KernelIdeal := trivial

/-- From memories agreeing on the six arguments both programs end with the reference's last stage of those arguments in
    their result buffers: the kernel program's result buffer at its last segment boundary is that stage (KernelHost),
    and so is the reference run's composed term. -/
theorem algebraic : Cert.algebraic_KernelIdeal_ReferenceIdeal := by
  intro m ρ m' ρ' _ hagree
  refine ⟨fun c => Cert.KernelIdeal.Gen.W9 m ρ c (Proc.devRef .tc Cert.KernelIdeal.main_v61),
    Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  rw [ref_result_eq, (hagree c).1, (hagree c).2.1, (hagree c).2.2.1, (hagree c).2.2.2.1, (hagree c).2.2.2.2.1, (hagree c).2.2.2.2.2]
  exact (Cert.KernelIdeal.HostValue.result m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
